-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S32x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S32x512 : Shape := ⟨2, ![32, 512]⟩
abbrev S32 : Shape := ⟨1, ![32]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S8x512x128x128 .f32) (main_arg1 : FVec F S32x512 .f32) (main_arg2 : FVec F S32 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S8x512x128x128 : Shape := ⟨4, ![8, 512, 128, 128]⟩
abbrev S32x512 : Shape := ⟨2, ![32, 512]⟩
abbrev S32 : Shape := ⟨1, ![32]⟩
abbrev S_ : Shape := ⟨0, ![]⟩
abbrev S8x512x16384 : Shape := ⟨3, ![8, 512, 16384]⟩
abbrev S8x32x512 : Shape := ⟨3, ![8, 32, 512]⟩
abbrev S1x512x4096 : Shape := ⟨3, ![1, 512, 4096]⟩
abbrev S1x32x512 : Shape := ⟨3, ![1, 32, 512]⟩
abbrev S512x4096 : Shape := ⟨2, ![512, 4096]⟩
abbrev S4096 : Shape := ⟨1, ![4096]⟩
abbrev S32x4096 : Shape := ⟨2, ![32, 4096]⟩
abbrev S32x1 : Shape := ⟨2, ![32, 1]⟩
abbrev S1x4096 : Shape := ⟨2, ![1, 4096]⟩

abbrev nBuf : Space → Nat
  | .hbm => 8
  | .vmem => 9
  | .smem => 0
  | _ => 0

abbrev bufTy : (tb : Table) → Fin (tcTables nBuf tb) → BufTy
  | .hbm, ⟨0, _⟩ => ⟨S8x512x128x128, .f32⟩
  | .hbm, ⟨1, _⟩ => ⟨S32x512, .f32⟩
  | .hbm, ⟨2, _⟩ => ⟨S32, .f32⟩
  | .hbm, ⟨3, _⟩ => ⟨S32x512, .f32⟩
  | .hbm, ⟨4, _⟩ => ⟨S_, .f32⟩
  | .hbm, ⟨5, _⟩ => ⟨S32, .f32⟩
  | .hbm, ⟨6, _⟩ => ⟨S8x512x16384, .f32⟩
  | .hbm, ⟨7, _⟩ => ⟨S8x32x512, .f32⟩
  | .local _ .vmem, ⟨0, _⟩ => ⟨S1x512x4096, .f32⟩
  | .local _ .vmem, ⟨1, _⟩ => ⟨S1x512x4096, .f32⟩
  | .local _ .vmem, ⟨2, _⟩ => ⟨S32x512, .f32⟩
  | .local _ .vmem, ⟨3, _⟩ => ⟨S32, .f32⟩
  | .local _ .vmem, ⟨4, _⟩ => ⟨S32, .f32⟩
  | .local _ .vmem, ⟨5, _⟩ => ⟨S1x32x512, .f32⟩
  | .local _ .vmem, ⟨6, _⟩ => ⟨S1x32x512, .f32⟩
  | .local _ .vmem, ⟨7, _⟩ => ⟨S32x512, .f32⟩
  | .local _ .vmem, ⟨8, _⟩ => ⟨S32, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_20 : BitVec 32 := 0#32
  let v52 : BitVec 1 := Scalar.cmpi .ne v51 c0_i32_20
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S32x512_S32_d1 : S32x512.ReducesTo [1] S32
  h_S_ : 0 < S_.numel
  shapeCasts_S8x512x128x128_S8x512x16384 : S8x512x128x128.ShapeCasts S8x512x16384
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32_S32_0 : ∀ a, (![0] : Fin 1 → Nat) a + S32.size a ≤ S32.size a
  h_S32 : 0 < S32.numel
  shapeCasts_S32_S32 : S32.ShapeCasts S32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S4096 : S512x4096.Reduces [0] S4096
  bitsLt_bf16_f32 : FTy.bits .bf16 < FTy.bits .f32
  shapeCasts_S32_S32x1 : S32.ShapeCasts S32x1
  shapeCasts_S4096_S1x4096 : S4096.ShapeCasts S1x4096
  broadcasts_S1x4096_S32x4096 : S1x4096.Broadcasts S32x4096
  broadcasts_S32x1_S32x4096 : S32x1.Broadcasts S32x4096
  reduces_S32x4096_S4096 : S32x4096.Reduces [0] S4096
  reduces_S32x4096_S32 : S32x4096.Reduces [1] S32
  broadcasts_S32x1_S32x512 : S32x1.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  dot_S32x512_S512x4096_S32x4096_1_0_0_1_n_n_wf : DotDims.WF S32x512 S512x4096 S32x4096 [1] [0] [0] [1] [] []
  dot_S32x4096_S512x4096_S32x512_1_1_0_0_n_n_wf : DotDims.WF S32x4096 S512x4096 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x16384.size a
  hwx0_0 : ∀ i : grid0.Coords, EltTy.bits .f32 = 32 ∨ (Rect.block (s := S8x512x16384) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x512.size a ≤ S8x32x512.size a
  hwx0_4 : ∀ i : grid0.Coords, EltTy.bits .f32 = 32 ∨ (Rect.block (s := S8x32x512) S1x32x512.size (cc0_transform_4 i) (hinb0_4 i)).WholeWords (EltTy.packing .f32)

variable [Facts₀]

def dot_S32x512_S512x4096_S32x4096_1_0_0_1_n_n : DotDims S32x512 S512x4096 S32x4096 where
  lhsContracting := [1]
  rhsContracting := [0]
  lhsNonContracting := [0]
  rhsNonContracting := [1]
  lhsBatch := []
  rhsBatch := []
  wf := dot_S32x512_S512x4096_S32x4096_1_0_0_1_n_n_wf
def dot_S32x4096_S512x4096_S32x512_1_1_0_0_n_n : DotDims S32x4096 S512x4096 S32x512 where
  lhsContracting := [1]
  rhsContracting := [1]
  lhsNonContracting := [0]
  rhsNonContracting := [0]
  lhsBatch := []
  rhsBatch := []
  wf := dot_S32x4096_S512x4096_S32x512_1_1_0_0_n_n_wf

abbrev win0_0 : Pipeline.Window sig grid0 :=
  Pipeline.Window.ofSpec (Memref.whole main_v2) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S32x512 : Shape := ⟨2, ![32, 512]⟩
abbrev S32 : Shape := ⟨1, ![32]⟩
abbrev S8x512x16384 : Shape := ⟨3, ![8, 512, 16384]⟩
abbrev S8x16384x512 : Shape := ⟨3, ![8, 16384, 512]⟩
abbrev S_ : Shape := ⟨0, ![]⟩
abbrev S8x16384 : Shape := ⟨2, ![8, 16384]⟩
abbrev S8x16384x1 : Shape := ⟨3, ![8, 16384, 1]⟩
abbrev S8x16384x32 : Shape := ⟨3, ![8, 16384, 32]⟩
abbrev S1x1x32 : Shape := ⟨3, ![1, 1, 32]⟩
abbrev S8x32x512 : Shape := ⟨3, ![8, 32, 512]⟩
abbrev S8x32 : Shape := ⟨2, ![8, 32]⟩
abbrev S8x32x1 : Shape := ⟨3, ![8, 32, 1]⟩
abbrev S1x32x512 : Shape := ⟨3, ![1, 32, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S32x512, .f32⟩
  | .hbm, ⟨2, _⟩ => ⟨S32, .f32⟩
  | .hbm, ⟨3, _⟩ => ⟨S8x512x16384, .f32⟩
  | .hbm, ⟨4, _⟩ => ⟨S8x16384x512, .f32⟩
  | .hbm, ⟨5, _⟩ => ⟨S8x16384x512, .f32⟩
  | .hbm, ⟨6, _⟩ => ⟨S_, .f32⟩
  | .hbm, ⟨7, _⟩ => ⟨S8x16384, .f32⟩
  | .hbm, ⟨8, _⟩ => ⟨S8x16384x1, .f32⟩
  | .hbm, ⟨9, _⟩ => ⟨S32x512, .f32⟩
  | .hbm, ⟨10, _⟩ => ⟨S_, .f32⟩
  | .hbm, ⟨11, _⟩ => ⟨S32, .f32⟩
  | .hbm, ⟨12, _⟩ => ⟨S8x16384x32, .f32⟩
  | .hbm, ⟨13, _⟩ => ⟨S_, .f32⟩
  | .hbm, ⟨14, _⟩ => ⟨S8x16384x32, .f32⟩
  | .hbm, ⟨15, _⟩ => ⟨S8x16384x32, .f32⟩
  | .hbm, ⟨16, _⟩ => ⟨S8x16384x32, .f32⟩
  | .hbm, ⟨17, _⟩ => ⟨S8x16384x32, .f32⟩
  | .hbm, ⟨18, _⟩ => ⟨S1x1x32, .f32⟩
  | .hbm, ⟨19, _⟩ => ⟨S8x16384x32, .f32⟩
  | .hbm, ⟨20, _⟩ => ⟨S8x16384x32, .f32⟩
  | .hbm, ⟨21, _⟩ => ⟨S1x1x32, .f32⟩
  | .hbm, ⟨22, _⟩ => ⟨S8x16384x32, .f32⟩
  | .hbm, ⟨23, _⟩ => ⟨S8x16384x32, .f32⟩
  | .hbm, ⟨24, _⟩ => ⟨S_, .f32⟩
  | .hbm, ⟨25, _⟩ => ⟨S8x16384, .f32⟩
  | .hbm, ⟨26, _⟩ => ⟨S_, .f32⟩
  | .hbm, ⟨27, _⟩ => ⟨S8x16384, .f32⟩
  | .hbm, ⟨28, _⟩ => ⟨S8x16384, .f32⟩
  | .hbm, ⟨29, _⟩ => ⟨S8x16384x1, .f32⟩
  | .hbm, ⟨30, _⟩ => ⟨S8x16384x32, .f32⟩
  | .hbm, ⟨31, _⟩ => ⟨S8x16384x32, .f32⟩
  | .hbm, ⟨32, _⟩ => ⟨S8x16384x32, .f32⟩
  | .hbm, ⟨33, _⟩ => ⟨S_, .f32⟩
  | .hbm, ⟨34, _⟩ => ⟨S8x16384, .f32⟩
  | .hbm, ⟨35, _⟩ => ⟨S8x16384x1, .f32⟩
  | .hbm, ⟨36, _⟩ => ⟨S8x16384x32, .f32⟩
  | .hbm, ⟨37, _⟩ => ⟨S8x16384x32, .f32⟩
  | .hbm, ⟨38, _⟩ => ⟨S8x32x512, .f32⟩
  | .hbm, ⟨39, _⟩ => ⟨S_, .f32⟩
  | .hbm, ⟨40, _⟩ => ⟨S8x32, .f32⟩
  | .hbm, ⟨41, _⟩ => ⟨S8x32x1, .f32⟩
  | .hbm, ⟨42, _⟩ => ⟨S1x32x512, .f32⟩
  | .hbm, ⟨43, _⟩ => ⟨S8x32x512, .f32⟩
  | .hbm, ⟨44, _⟩ => ⟨S8x32x512, .f32⟩
  | .hbm, ⟨45, _⟩ => ⟨S8x32x512, .f32⟩
  | .hbm, ⟨46, _⟩ => ⟨S8x32x512, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S8x512x128x128_S8x512x16384 : S8x512x128x128.ShapeCasts S8x512x16384
  transposes_S8x512x16384_S8x16384x512_0_2_1 : S8x512x16384.Transposes [0, 2, 1] S8x16384x512
  reducesTo_S8x16384x512_S8x16384_d2 : S8x16384x512.ReducesTo [2] S8x16384
  h_S_ : 0 < S_.numel
  bcast_S8x16384_S8x16384x1_0_1 : S8x16384.BroadcastsInDim S8x16384x1 (![0, 1] : Fin 2 → Fin S8x16384x1.rank)
  reducesTo_S32x512_S32_d1 : S32x512.ReducesTo [1] S32
  bcast_S_S8x16384x32 : S_.BroadcastsInDim S8x16384x32 (![] : Fin 0 → Fin S8x16384x32.rank)
  bcast_S8x16384x1_S8x16384x32_0_1_2 : S8x16384x1.BroadcastsInDim S8x16384x32 (![0, 1, 2] : Fin 3 → Fin S8x16384x32.rank)
  bcast_S32_S1x1x32_2 : S32.BroadcastsInDim S1x1x32 (![2] : Fin 1 → Fin S1x1x32.rank)
  bcast_S1x1x32_S8x16384x32_0_1_2 : S1x1x32.BroadcastsInDim S8x16384x32 (![0, 1, 2] : Fin 3 → Fin S8x16384x32.rank)
  reducesTo_S8x16384x32_S8x16384_d2 : S8x16384x32.ReducesTo [2] S8x16384
  bcast_S_S8x16384 : S_.BroadcastsInDim S8x16384 (![] : Fin 0 → Fin S8x16384.rank)
  reducesTo_S8x16384x32_S8x32_d1 : S8x16384x32.ReducesTo [1] S8x32
  bcast_S8x32_S8x32x1_0_1 : S8x32.BroadcastsInDim S8x32x1 (![0, 1] : Fin 2 → Fin S8x32x1.rank)
  bcast_S32x512_S1x32x512_1_2 : S32x512.BroadcastsInDim S1x32x512 (![1, 2] : Fin 2 → Fin S1x32x512.rank)
  bcast_S8x32x1_S8x32x512_0_1_2 : S8x32x1.BroadcastsInDim S8x32x512 (![0, 1, 2] : Fin 3 → Fin S8x32x512.rank)
  bcast_S1x32x512_S8x32x512_0_1_2 : S1x32x512.BroadcastsInDim S8x32x512 (![0, 1, 2] : Fin 3 → Fin S8x32x512.rank)
  dot_S8x16384x512_S32x512_S8x16384x32_2_1_01_0_n_n_wf : DotDims.WF S8x16384x512 S32x512 S8x16384x32 [2] [1] [0, 1] [0] [] []
  dot_S8x16384x32_S8x16384x512_S8x32x512_1_1_2_2_0_0_wf : DotDims.WF S8x16384x32 S8x16384x512 S8x32x512 [1] [1] [2] [2] [0] [0]

variable [Facts₀]

def dot_S8x16384x512_S32x512_S8x16384x32_2_1_01_0_n_n : DotDims S8x16384x512 S32x512 S8x16384x32 where
  lhsContracting := [2]
  rhsContracting := [1]
  lhsNonContracting := [0, 1]
  rhsNonContracting := [0]
  lhsBatch := []
  rhsBatch := []
  wf := dot_S8x16384x512_S32x512_S8x16384x32_2_1_01_0_n_n_wf
def dot_S8x16384x32_S8x16384x512_S8x32x512_1_1_2_2_0_0 : DotDims S8x16384x32 S8x16384x512 S8x32x512 where
  lhsContracting := [1]
  rhsContracting := [1]
  lhsNonContracting := [2]
  rhsNonContracting := [2]
  lhsBatch := [0]
  rhsBatch := [0]
  wf := dot_S8x16384x32_S8x16384x512_S8x32x512_1_1_2_2_0_0_wf

class Facts : Prop extends Facts₀ where

variable [Facts]
-- ==== Proof.Pieces.lean ====
import proofs.«146331_j14053132992759_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-! What each control case of the body leaves in the two accumulators and in the output block, as pure terms of the
    input blocks: the tile's weighted sum of columns (`k0_pay9`) and the tile's column-weight totals (`k0_pay10`)
    are added to what the accumulators held (the zero block at the first tile of a batch), and at the last tile of a
    batch the output block is the first accumulator minus the second times the codewords. -/

/-- The stores and loads of the body start at the origin of their buffers: the all-zero offsets, at each rank. -/
theorem zeroOffset2 : (![0, 0] : Fin 2 → Nat) = fun _ => 0 := funext fun a => by fin_cases a <;> rfl
theorem zeroOffset1 : (![0] : Fin 1 → Nat) = fun _ => 0 := funext fun a => by fin_cases a; rfl
theorem zeroOffset3 : (![0, 0, 0] : Fin 3 → Nat) = fun _ => 0 := funext fun a => by fin_cases a <;> rfl

/-- A middle tile adds its weighted column sum to the first accumulator. -/
theorem scratch0_B (c : Dev nD) (i : grid0.Coords) (arg2 : Memref sig .tc .vmem S1x512x4096 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : ¬cond0_1 i) (x0 : Vec F S1x512x4096 .f32) (x1 : Vec F S32x512 .f32) (x2 : Vec F S32 .f32) (x3 : Vec F S32 .f32) (xs0 : Vec F S32x512 .f32) (xs1 : Vec F S32 .f32) :
    sout0_B_0 c i arg2 harg2 arg3 harg3 arg4 harg4 arg5 harg5 arg6 harg6 arg7 harg7 arg8 harg8 hc0 hc1 x0 x1 x2 x3 xs0 xs1 = k0_pay1 (k0_pay9 x0 x1 x2 x3) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zeroOffset2]
  simp only [View.readAt_eq_ld, harg2.read_unread, harg3.read_unread, harg4.read_unread, harg5.read_unread, harg7.read_unread, harg8.read_unread, View.ld_unit_zero (S := S32x512) zeroOffset2, View.ld_unit_zero (S := S1x512x4096) zeroOffset3, View.ld_unit_zero (S := S32) zeroOffset1]

/-- A middle tile adds its weight totals to the second accumulator. -/
theorem scratch1_B (c : Dev nD) (i : grid0.Coords) (arg2 : Memref sig .tc .vmem S1x512x4096 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : ¬cond0_1 i) (x0 : Vec F S1x512x4096 .f32) (x1 : Vec F S32x512 .f32) (x2 : Vec F S32 .f32) (x3 : Vec F S32 .f32) (xs0 : Vec F S32x512 .f32) (xs1 : Vec F S32 .f32) :
    sout0_B_1 c i arg2 harg2 arg3 harg3 arg4 harg4 arg5 harg5 arg6 harg6 arg7 harg7 arg8 harg8 hc0 hc1 x0 x1 x2 x3 xs0 xs1 = k0_pay2 (k0_pay10 x0 x1 x2 x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zeroOffset1]
  simp only [View.readAt_eq_ld, harg2.read_unread, harg3.read_unread, harg4.read_unread, harg5.read_unread, harg7.read_unread, harg8.read_unread, View.ld_unit_zero (S := S32x512) zeroOffset2, View.ld_unit_zero (S := S1x512x4096) zeroOffset3, View.ld_unit_zero (S := S32) zeroOffset1]

/-- The last tile of a batch adds to the first accumulator like a middle one. -/
theorem scratch0_C (c : Dev nD) (i : grid0.Coords) (arg2 : Memref sig .tc .vmem S1x512x4096 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : cond0_1 i) (x0 : Vec F S1x512x4096 .f32) (x1 : Vec F S32x512 .f32) (x2 : Vec F S32 .f32) (x3 : Vec F S32 .f32) (xs0 : Vec F S32x512 .f32) (xs1 : Vec F S32 .f32) :
    sout0_C_0 c i arg2 harg2 arg3 harg3 arg4 harg4 arg5 harg5 arg6 harg6 arg7 harg7 arg8 harg8 hc0 hc1 x0 x1 x2 x3 xs0 xs1 = k0_pay1 (k0_pay9 x0 x1 x2 x3) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zeroOffset2]
  simp only [View.readAt_eq_ld, harg2.read_unread, harg3.read_unread, harg4.read_unread, harg5.read_unread, harg7.read_unread, harg8.read_unread, View.ld_unit_zero (S := S32x512) zeroOffset2, View.ld_unit_zero (S := S1x512x4096) zeroOffset3, View.ld_unit_zero (S := S32) zeroOffset1]

/-- The last tile of a batch adds to the second accumulator like a middle one. -/
theorem scratch1_C (c : Dev nD) (i : grid0.Coords) (arg2 : Memref sig .tc .vmem S1x512x4096 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : cond0_1 i) (x0 : Vec F S1x512x4096 .f32) (x1 : Vec F S32x512 .f32) (x2 : Vec F S32 .f32) (x3 : Vec F S32 .f32) (xs0 : Vec F S32x512 .f32) (xs1 : Vec F S32 .f32) :
    sout0_C_1 c i arg2 harg2 arg3 harg3 arg4 harg4 arg5 harg5 arg6 harg6 arg7 harg7 arg8 harg8 hc0 hc1 x0 x1 x2 x3 xs0 xs1 = k0_pay2 (k0_pay10 x0 x1 x2 x3) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zeroOffset1]
  simp only [View.readAt_eq_ld, harg2.read_unread, harg3.read_unread, harg4.read_unread, harg5.read_unread, harg7.read_unread, harg8.read_unread, View.ld_unit_zero (S := S32x512) zeroOffset2, View.ld_unit_zero (S := S1x512x4096) zeroOffset3, View.ld_unit_zero (S := S32) zeroOffset1]

/-- The last tile of a batch writes the output block: the updated first accumulator minus the updated second one times
    the codewords. -/
theorem out4_C (c : Dev nD) (i : grid0.Coords) (arg2 : Memref sig .tc .vmem S1x512x4096 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : cond0_1 i) (x0 : Vec F S1x512x4096 .f32) (x1 : Vec F S32x512 .f32) (x2 : Vec F S32 .f32) (x3 : Vec F S32 .f32) (xs0 : Vec F S32x512 .f32) (xs1 : Vec F S32 .f32) :
    out0_C_4 c i arg2 harg2 arg3 harg3 arg4 harg4 arg5 harg5 arg6 harg6 arg7 harg7 arg8 harg8 hc0 hc1 x0 x1 x2 x3 xs0 xs1
      = k0_pay3 (k0_pay1 (k0_pay9 x0 x1 x2 x3) xs0) (k0_pay2 (k0_pay10 x0 x1 x2 x3) xs1) x1 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zeroOffset3, View.readCov_unit_zero (S := S32x512) _ zeroOffset2, View.readCov_unit_zero (S := S32) _ zeroOffset1]
  simp only [View.readAt_eq_ld, harg2.read_unread, harg3.read_unread, harg4.read_unread, harg5.read_unread, harg7.read_unread, harg8.read_unread, View.ld_unit_zero (S := S32x512) zeroOffset2, View.ld_unit_zero (S := S1x512x4096) zeroOffset3, View.ld_unit_zero (S := S32) zeroOffset1]

/-- The first tile of a batch resets the first accumulator to the zero block and adds its weighted column sum. -/
theorem scratch0_A (c : Dev nD) (i : grid0.Coords) (arg2 : Memref sig .tc .vmem S1x512x4096 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : cond0_0 i) (hc1 : ¬cond0_1 i) (x0 : Vec F S1x512x4096 .f32) (x1 : Vec F S32x512 .f32) (x2 : Vec F S32 .f32) (x3 : Vec F S32 .f32) :
    sout0_A_0 c i arg2 harg2 arg3 harg3 arg4 harg4 arg5 harg5 arg6 harg6 arg7 harg7 arg8 harg8 hc0 hc1 x0 x1 x2 x3 = k0_pay1 (k0_pay9 x0 x1 x2 x3) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32x512) zeroOffset2, View.readCov_unit_zero (S := S32x512) _ zeroOffset2]
  simp only [View.readAt_eq_ld, harg2.read_unread, harg3.read_unread, harg4.read_unread, harg5.read_unread, harg7.read_unread, harg8.read_unread, View.ld_unit_zero (S := S32x512) zeroOffset2, View.ld_unit_zero (S := S1x512x4096) zeroOffset3, View.ld_unit_zero (S := S32) zeroOffset1]

/-- The first tile of a batch resets the second accumulator to the zero vector and adds its weight totals. -/
theorem scratch1_A (c : Dev nD) (i : grid0.Coords) (arg2 : Memref sig .tc .vmem S1x512x4096 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : cond0_0 i) (hc1 : ¬cond0_1 i) (x0 : Vec F S1x512x4096 .f32) (x1 : Vec F S32x512 .f32) (x2 : Vec F S32 .f32) (x3 : Vec F S32 .f32) :
    sout0_A_1 c i arg2 harg2 arg3 harg3 arg4 harg4 arg5 harg5 arg6 harg6 arg7 harg7 arg8 harg8 hc0 hc1 x0 x1 x2 x3 = k0_pay2 (k0_pay10 x0 x1 x2 x3) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32) zeroOffset1, View.readCov_unit_zero (S := S32) _ zeroOffset1]
  simp only [View.readAt_eq_ld, harg2.read_unread, harg3.read_unread, harg4.read_unread, harg5.read_unread, harg7.read_unread, harg8.read_unread, View.ld_unit_zero (S := S32x512) zeroOffset2, View.ld_unit_zero (S := S1x512x4096) zeroOffset3, View.ld_unit_zero (S := S32) zeroOffset1]

end Cert.KernelIdeal.Pieces
end
-- ==== Proof.Spec.lean ====
import Idealize.ShloMosaic.PureOps.Ideal
import Idealize.ShloMosaic.PureOps.Ideal.Laws
import Idealize.ShloMosaic.Lib.ValueIdx

/-!
  Soft assignment of positions to codewords, and the aggregated residuals, as one function of the arrays, over the
  extended reals.

  The input is read as `W (b, d, n)`: batch `b` of 8, channel `d` of 512, position `n` of 16384.  For one position the
  column `x = W (b, ·, n)` has, against codeword `k`, the logit `s k · (‖x‖² − 2 · ⟨x, C k⟩ + ‖C k‖²)`; the weights of the
  position are the softmax of its 32 logits (shifted by their maximum, taken from `−∞`); and the result at `(b, k, d)` is
  `∑ₙ a (b, n, k) · W (b, d, n) − (∑ₙ a (b, n, k)) · C (k, d)`.

  A sum over the 16384 positions is the sum of its four consecutive runs of 4096 (`sum_tiles`): addition of extended
  reals is commutative and associative, so no finiteness is asked.
-/

open scoped BigOperators

noncomputable section

namespace Cert.SoftAssign

open Idealize.ShloMosaic Idealize.ShloMosaic.ValueIdx

/-- The input as batch × channel × position. -/
abbrev Arr3 : Type := (⟨3, ![8, 512, 16384]⟩ : Shape).Idx → EReal
/-- The codewords, 32 of 512 channels. -/
abbrev Code : Type := (⟨2, ![32, 512]⟩ : Shape).Idx → EReal
/-- One scale per codeword. -/
abbrev Scale : Type := (⟨1, ![32]⟩ : Shape).Idx → EReal

/-- The literal `2.0`. -/
abbrev two : EReal := Ideal.ofBits .f32 0x40000000#32
/-- The literal `−∞`. -/
abbrev ninf : EReal := Ideal.ofBits .f32 0xFF800000#32

/-- The logit of a column `x` against codeword `k`, the codewords' squared norms given as `q`. -/
def logit (x : Fin 512 → EReal) (C : Code) (s : Scale) (q : Fin 32 → EReal) (k : Fin 32) : EReal :=
  s (ix1 k) * ((∑ d : Fin 512, x d * x d) - two * (∑ d : Fin 512, x d * C (ix2 k d)) + q k)

/-- The largest of 32 logits, from `−∞`. -/
def peak (l : Fin 32 → EReal) : EReal := max ninf ((Finset.univ : Finset (Fin 32)).fold max ninf l)

/-- The softmax weight of codeword `k` among 32 logits. -/
def soft (l : Fin 32 → EReal) (k : Fin 32) : EReal :=
  Ideal.div (Ideal.exp (l k - peak l)) (∑ k' : Fin 32, Ideal.exp (l k' - peak l))

/-- A codeword's squared norm. -/
def codeSq (C : Code) (k : Fin 32) : EReal := ∑ d : Fin 512, C (ix2 k d) * C (ix2 k d)

/-- The weight of codeword `k` at position `n` of batch `b`. -/
def assign (W : Arr3) (C : Code) (s : Scale) (b : Fin 8) (n : Fin 16384) (k : Fin 32) : EReal :=
  soft (logit (fun d => W (ix3 b d n)) C s (codeSq C)) k

/-- The aggregated residual at batch `b`, codeword `k`, channel `d`. -/
def resultAt (W : Arr3) (C : Code) (s : Scale) (b : Fin 8) (k : Fin 32) (d : Fin 512) : EReal :=
  (∑ n : Fin 16384, assign W C s b n k * W (ix3 b d n)) - (∑ n : Fin 16384, assign W C s b n k) * C (ix2 k d)

/-- The result array. -/
def result (W : Arr3) (C : Code) (s : Scale) : (⟨3, ![8, 32, 512]⟩ : Shape).Idx → EReal :=
  fun i => resultAt W C s (i 0) (i 1) (i 2)

/-- Position `j` of run `t`: the runs are consecutive, 4096 positions each. -/
def tileCol (t : Fin 4) (j : Fin 4096) : Fin 16384 :=
  ⟨4096 * t.val + j.val, by have := t.isLt; have := j.isLt; omega⟩

/-- A sum over all positions is the four runs' sums added in order, from zero. -/
theorem sum_tiles (f : Fin 16384 → EReal) :
    (∑ n : Fin 16384, f n)
      = (((0 + ∑ j : Fin 4096, f (tileCol 0 j)) + ∑ j : Fin 4096, f (tileCol 1 j)) + ∑ j : Fin 4096, f (tileCol 2 j))
          + ∑ j : Fin 4096, f (tileCol 3 j) := by
  have e : ∀ (t : Fin 4) (j : Fin 4096), (finProdFinEquiv (t, j) : Fin (4 * 4096)) = tileCol t j := fun t j =>
    Fin.ext (by simp only [finProdFinEquiv_apply_val, tileCol]; omega)
  have h := Equiv.sum_comp (finProdFinEquiv : Fin 4 × Fin 4096 ≃ Fin (4 * 4096)) f
  rw [← h, Fintype.sum_prod_type, Fin.sum_univ_four, zero_add]
  simp only [e]

end Cert.SoftAssign

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.LibFoldMax.lean ====
/-
  Maxima along one axis, read at an index given by coordinates, at the extended reals.

  The maximum of an `a × b` array along its first axis is, at column `c`, the fold of `max` over the rows `r` of the
  entries `(r, c)`, started from the value the accumulator word denotes; the maximum of an `m × n × k` array along its
  last axis, as the host's reduce with a maximum body computes it, is at `(p, q)` the fold of `max` over `r` of the entries
  `(p, q, r)`, started from the initial value.  `max` commutes and associates, so the order of the fold does not matter
  and both are folds over the whole finite set of coordinates.
-/
import Idealize.ShloMosaic.Lib.Pipeline.Value
import Idealize.ShloMosaic.Lib.ValueIdx
import Idealize.ShloMosaic.PureOps.Ideal.Laws

namespace Cert.LibFoldMax

open Idealize.ShloMosaic Idealize.ShloMosaic.ValueIdx

variable {φ : FTy}

/-- COLUMN MAXIMA. The float maximum of an `a × b` array along its first axis is, at column `c`, the fold of `max` over
    the rows, from the accumulator's value. -/
theorem multiReduction_maximumf_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun r => src (ix2 r c)) := by
  refine (Ideal.multiReduction_maximumf_single src acc h hφ hacc (ix1 c)).trans ?_
  refine congrArg (fun f => Finset.fold max (Ideal.ofBits φ acc) f (Finset.univ : Finset (Fin a)))
    (funext fun r => congrArg src (funext fun ax => Fin.ext ?_))
  rw [h.lift_val]
  unfold Shape.Reduces.liftVal
  match ax with
  | ⟨0, _⟩ => rfl
  | ⟨1, _⟩ => rfl

/-- LAST-AXIS MAXIMA ON THE HOST. A one-operand reduce with a maximum body over the last axis of an `m × n × k` array is,
    at `(p, q)`, the fold of `max` over that axis, from the initial value. -/
theorem hostReduce_maximumf_last3 {m n k : ℕ} (x : FVec Ideal ⟨3, ![m, n, k]⟩ φ) (init : (⟨0, ![]⟩ : Shape).Idx → Ideal φ)
    (h' : (⟨3, ![m, n, k]⟩ : Shape).ReducesTo [2] ⟨2, ![m, n]⟩) (h : (⟨3, ![m, n, k]⟩ : Shape).Reduces [2] ⟨2, ![m, n]⟩)
    (hu : 0 < (⟨0, ![]⟩ : Shape).numel) (p : Fin m) (q : Fin n) :
    Host.reduce FloatOps.maximumf x init h' hu (ix2 p q)
      = (Finset.univ : Finset (Fin k)).fold max (init (Shape.Idx.first hu)) (fun r => x (ix3 p q r)) := by
  refine (Host.reduce_eq_fold_single FloatOps.maximumf x init h' h hu (ix2 p q)).trans ?_
  refine congrArg (fun f => Finset.fold max (init (Shape.Idx.first hu)) f (Finset.univ : Finset (Fin k)))
    (funext fun r => congrArg x (funext fun ax => Fin.ext ?_))
  rw [h.lift_val]
  unfold Shape.Reduces.liftVal
  match ax with
  | ⟨0, _⟩ => rfl
  | ⟨1, _⟩ => rfl
  | ⟨2, _⟩ => rfl

end Cert.LibFoldMax
-- ==== Proof.Tile.lean ====
import proofs.«146331_j14053132992759_2_alg».proof.Proof.Gen.KernelIdeal.Skeleton
import proofs.«146331_j14053132992759_2_alg».proof.Proof.Spec
import proofs.«146331_j14053132992759_2_alg».proof.Proof.LibKeepdims
import proofs.«146331_j14053132992759_2_alg».proof.Proof.LibFoldMax
import Idealize.ShloMosaic.Lib.Pipeline.Value
import Idealize.ShloMosaic.Lib.ValueIdx
import Idealize.ShloMosaic.Lib.ValueLayout
import Idealize.ShloMosaic.PureOps.Ideal.Laws

/-!
  One tile of the kernel, read at an index over the extended reals.

  A tile is a `512 × 4096` block `x` of the input (channels by positions), with the codewords `C`, the scales `s` and the
  codewords' squared norms `q`.  Its weights are, column by column, the softmax over the 32 codewords of the logits
  `s k · (‖x j‖² − 2 ⟨C k, x j⟩ + q k)` (`weights_apply`); the tile contributes `∑ⱼ a (k, j) · x (d, j)` to the weighted sums
  (`mix_apply`) and `∑ⱼ a (k, j)` to the weight totals (`total_apply`); an accumulation adds the contribution to what was
  held, and the final block is the weighted sums minus the totals times the codewords.
-/

open scoped BigOperators

noncomputable section

namespace Cert.KernelIdeal.Tile

open Cert.KernelIdeal Cert.KernelIdeal.Gen Idealize.ShloMosaic Idealize.ShloMosaic.ValueIdx
open Cert.LibKeepdims Cert.LibFoldMax Cert.SoftAssign

/-! ## The two matrix products -/

theorem scoreL0 (i : S32x4096.Idx) (q : dot_S32x512_S512x4096_S32x4096_1_0_0_1_n_n.contr.Idx) : (dot_S32x512_S512x4096_S32x4096_1_0_0_1_n_n.lhsIdx i q 0).val = (i 0).val := by
  unfold DotDims.lhsIdx
  rw [dif_neg (show ¬(0 : Fin S32x512.rank) ∈ dot_S32x512_S512x4096_S32x4096_1_0_0_1_n_n.lhsBatch by decide), dif_pos (show (0 : Fin S32x512.rank) ∈ dot_S32x512_S512x4096_S32x4096_1_0_0_1_n_n.lhsNonContracting by decide)]
  rfl
theorem scoreL1 (i : S32x4096.Idx) (q : dot_S32x512_S512x4096_S32x4096_1_0_0_1_n_n.contr.Idx) : (dot_S32x512_S512x4096_S32x4096_1_0_0_1_n_n.lhsIdx i q 1).val = (q ⟨0, by decide⟩).val :=
  dot_S32x512_S512x4096_S32x4096_1_0_0_1_n_n.lhsIdx_val_of_single rfl i q
theorem scoreR0 (i : S32x4096.Idx) (q : dot_S32x512_S512x4096_S32x4096_1_0_0_1_n_n.contr.Idx) : (dot_S32x512_S512x4096_S32x4096_1_0_0_1_n_n.rhsIdx i q 0).val = (q ⟨0, by decide⟩).val :=
  dot_S32x512_S512x4096_S32x4096_1_0_0_1_n_n.rhsIdx_val_of_single rfl i q
theorem scoreR1 (i : S32x4096.Idx) (q : dot_S32x512_S512x4096_S32x4096_1_0_0_1_n_n.contr.Idx) : (dot_S32x512_S512x4096_S32x4096_1_0_0_1_n_n.rhsIdx i q 1).val = (i 1).val := by
  unfold DotDims.rhsIdx
  rw [dif_neg (show ¬(1 : Fin S512x4096.rank) ∈ dot_S32x512_S512x4096_S32x4096_1_0_0_1_n_n.rhsBatch by decide), dif_pos (show (1 : Fin S512x4096.rank) ∈ dot_S32x512_S512x4096_S32x4096_1_0_0_1_n_n.rhsNonContracting by decide)]
  rfl

/-- Codewords times a tile: at `(k, j)` the inner product of codeword `k` with column `j`. -/
theorem scores_apply (l : FVec Ideal S32x512 .bf16) (r : FVec Ideal S512x4096 .bf16) (k : Fin 32) (j : Fin 4096) :
    matmul dot_S32x512_S512x4096_S32x4096_1_0_0_1_n_n none l r (constant (F := Ideal) S32x4096 .f32 0x00000000#32) (ix2 k j)
      = ∑ d : Fin 512, l (ix2 k d) * r (ix2 d j) := by
  refine (Ideal.matmul_constant_zero_apply dot_S32x512_S512x4096_S32x4096_1_0_0_1_n_n none l r (ix2 k j)).trans ?_
  rw [← Equiv.sum_comp (contrEquiv1 dot_S32x512_S512x4096_S32x4096_1_0_0_1_n_n 512 rfl rfl).symm]
  refine Finset.sum_congr rfl fun d _ => ?_
  have hk := contrEquiv1_symm_val dot_S32x512_S512x4096_S32x4096_1_0_0_1_n_n 512 rfl rfl d
  have el : dot_S32x512_S512x4096_S32x4096_1_0_0_1_n_n.lhsIdx (ix2 k j) ((contrEquiv1 dot_S32x512_S512x4096_S32x4096_1_0_0_1_n_n 512 rfl rfl).symm d) = ix2 k d := funext fun a => Fin.ext (by
    match a with
    | ⟨0, _⟩ => exact scoreL0 _ _
    | ⟨1, _⟩ => exact (scoreL1 _ _).trans hk)
  have er : dot_S32x512_S512x4096_S32x4096_1_0_0_1_n_n.rhsIdx (ix2 k j) ((contrEquiv1 dot_S32x512_S512x4096_S32x4096_1_0_0_1_n_n 512 rfl rfl).symm d) = ix2 d j := funext fun a => Fin.ext (by
    match a with
    | ⟨0, _⟩ => exact (scoreR0 _ _).trans hk
    | ⟨1, _⟩ => exact scoreR1 _ _)
  rw [el, er]

theorem mixL0 (i : S32x512.Idx) (q : dot_S32x4096_S512x4096_S32x512_1_1_0_0_n_n.contr.Idx) : (dot_S32x4096_S512x4096_S32x512_1_1_0_0_n_n.lhsIdx i q 0).val = (i 0).val := by
  unfold DotDims.lhsIdx
  rw [dif_neg (show ¬(0 : Fin S32x4096.rank) ∈ dot_S32x4096_S512x4096_S32x512_1_1_0_0_n_n.lhsBatch by decide), dif_pos (show (0 : Fin S32x4096.rank) ∈ dot_S32x4096_S512x4096_S32x512_1_1_0_0_n_n.lhsNonContracting by decide)]
  rfl
theorem mixL1 (i : S32x512.Idx) (q : dot_S32x4096_S512x4096_S32x512_1_1_0_0_n_n.contr.Idx) : (dot_S32x4096_S512x4096_S32x512_1_1_0_0_n_n.lhsIdx i q 1).val = (q ⟨0, by decide⟩).val :=
  dot_S32x4096_S512x4096_S32x512_1_1_0_0_n_n.lhsIdx_val_of_single rfl i q
theorem mixR0 (i : S32x512.Idx) (q : dot_S32x4096_S512x4096_S32x512_1_1_0_0_n_n.contr.Idx) : (dot_S32x4096_S512x4096_S32x512_1_1_0_0_n_n.rhsIdx i q 0).val = (i 1).val := by
  unfold DotDims.rhsIdx
  rw [dif_neg (show ¬(0 : Fin S512x4096.rank) ∈ dot_S32x4096_S512x4096_S32x512_1_1_0_0_n_n.rhsBatch by decide), dif_pos (show (0 : Fin S512x4096.rank) ∈ dot_S32x4096_S512x4096_S32x512_1_1_0_0_n_n.rhsNonContracting by decide)]
  rfl
theorem mixR1 (i : S32x512.Idx) (q : dot_S32x4096_S512x4096_S32x512_1_1_0_0_n_n.contr.Idx) : (dot_S32x4096_S512x4096_S32x512_1_1_0_0_n_n.rhsIdx i q 1).val = (q ⟨0, by decide⟩).val :=
  dot_S32x4096_S512x4096_S32x512_1_1_0_0_n_n.rhsIdx_val_of_single rfl i q

/-- Weights times a tile, both contracted along the positions: at `(k, d)` the sum over the columns `j`. -/
theorem mix_apply (l : FVec Ideal S32x4096 .bf16) (r : FVec Ideal S512x4096 .bf16) (k : Fin 32) (d : Fin 512) :
    matmul dot_S32x4096_S512x4096_S32x512_1_1_0_0_n_n none l r (constant (F := Ideal) S32x512 .f32 0x00000000#32) (ix2 k d)
      = ∑ j : Fin 4096, l (ix2 k j) * r (ix2 d j) := by
  refine (Ideal.matmul_constant_zero_apply dot_S32x4096_S512x4096_S32x512_1_1_0_0_n_n none l r (ix2 k d)).trans ?_
  rw [← Equiv.sum_comp (contrEquiv1 dot_S32x4096_S512x4096_S32x512_1_1_0_0_n_n 4096 rfl rfl).symm]
  refine Finset.sum_congr rfl fun j _ => ?_
  have hk := contrEquiv1_symm_val dot_S32x4096_S512x4096_S32x512_1_1_0_0_n_n 4096 rfl rfl j
  have el : dot_S32x4096_S512x4096_S32x512_1_1_0_0_n_n.lhsIdx (ix2 k d) ((contrEquiv1 dot_S32x4096_S512x4096_S32x512_1_1_0_0_n_n 4096 rfl rfl).symm j) = ix2 k j := funext fun a => Fin.ext (by
    match a with
    | ⟨0, _⟩ => exact mixL0 _ _
    | ⟨1, _⟩ => exact (mixL1 _ _).trans hk)
  have er : dot_S32x4096_S512x4096_S32x512_1_1_0_0_n_n.rhsIdx (ix2 k d) ((contrEquiv1 dot_S32x4096_S512x4096_S32x512_1_1_0_0_n_n 4096 rfl rfl).symm j) = ix2 d j := funext fun a => Fin.ext (by
    match a with
    | ⟨0, _⟩ => exact mixR0 _ _
    | ⟨1, _⟩ => exact (mixR1 _ _).trans hk)
  rw [el, er]

/-! ## The softmax down each column -/

/-- Each column's largest entry, from `−∞`, spread back over the column. -/
def colPeak (v : FVec Ideal S32x4096 .f32) : FVec Ideal S32x4096 .f32 :=
  broadcastTo S32x4096 (shapeCast S1x4096 (maximumf (broadcast S4096 (Scalar.ofBits (F := Ideal) .f32 0xFF800000#32))
    (multiReduction (F := Ideal) .maximumf [0] S4096 v 0xFF800000#32 reduces_S32x4096_S4096 (.inl rfl) rfl)) shapeCasts_S4096_S1x4096)
    broadcasts_S1x4096_S32x4096

/-- The exponentials of the entries less their column's largest. -/
def colExp (v : FVec Ideal S32x4096 .f32) : FVec Ideal S32x4096 .f32 := exp (subf v (colPeak v))

/-- Each column's sum of exponentials, spread back over the column. -/
def colDen (v : FVec Ideal S32x4096 .f32) : FVec Ideal S32x4096 .f32 :=
  broadcastTo S32x4096 (shapeCast S1x4096 (multiReduction (F := Ideal) .add [0] S4096 (colExp v) 0x00000000#32
    reduces_S32x4096_S4096 (.inl rfl) rfl) shapeCasts_S4096_S1x4096) broadcasts_S1x4096_S32x4096

/-- The softmax down each column. -/
def colSoftmax (v : FVec Ideal S32x4096 .f32) : FVec Ideal S32x4096 .f32 := divf (colExp v) (colDen v)

theorem colPeak_apply (v : FVec Ideal S32x4096 .f32) (k : Fin 32) (j : Fin 4096) :
    colPeak v (ix2 k j) = peak (fun k' => v (ix2 k' j)) := by
  unfold colPeak
  rw [broadcastTo_1b_ab_apply, shapeCast_a_1a_apply]
  show max (Ideal.ofBits .f32 0xFF800000#32) (multiReduction (F := Ideal) .maximumf [0] S4096 v 0xFF800000#32 reduces_S32x4096_S4096 (.inl rfl) rfl (ix1 j)) = _
  exact congrArg (max (Ideal.ofBits .f32 0xFF800000#32))
    (multiReduction_maximumf_cols v 0xFF800000#32 reduces_S32x4096_S4096 (.inl rfl) rfl j)

theorem colExp_apply (v : FVec Ideal S32x4096 .f32) (k : Fin 32) (j : Fin 4096) :
    colExp v (ix2 k j) = Ideal.exp (v (ix2 k j) - peak (fun k' => v (ix2 k' j))) := by
  show Ideal.exp (v (ix2 k j) - colPeak v (ix2 k j)) = _
  rw [colPeak_apply]

theorem colDen_apply (v : FVec Ideal S32x4096 .f32) (k : Fin 32) (j : Fin 4096) :
    colDen v (ix2 k j) = ∑ k' : Fin 32, Ideal.exp (v (ix2 k' j) - peak (fun k'' => v (ix2 k'' j))) := by
  unfold colDen
  rw [broadcastTo_1b_ab_apply, shapeCast_a_1a_apply]
  refine (multiReduction_add_cols (colExp v) 0x00000000#32 reduces_S32x4096_S4096 (.inl rfl) rfl j).trans ?_
  exact Finset.sum_congr rfl fun k' _ => colExp_apply v k' j

/-- Down column `j` the entries' softmax. -/
theorem colSoftmax_apply (v : FVec Ideal S32x4096 .f32) (k : Fin 32) (j : Fin 4096) :
    colSoftmax v (ix2 k j) = soft (fun k' => v (ix2 k' j)) k := by
  show Ideal.div (colExp v (ix2 k j)) (colDen v (ix2 k j)) = _
  rw [colExp_apply, colDen_apply]
  rfl

/-! ## The logits of a tile -/

variable (x0 : Vec Ideal S1x512x4096 .f32) (x1 : Vec Ideal S32x512 .f32) (x2 x3 : Vec Ideal S32 .f32)

/-- The block with its unit axis dropped reads the block at `(0, d, j)`. -/
theorem tile_apply (d : Fin 512) (j : Fin 4096) : k0_pay6 (F := Ideal) x0 (ix2 d j) = x0 (ix3 (0 : Fin 1) d j) := by
  unfold k0_pay6
  exact shapeCast_1ab_ab_apply x0 _ d j

/-- The logits of the tile's columns against the codewords, as the body computes them. -/
def tileLogits : FVec Ideal S32x4096 .f32 :=
  mulf (broadcastTo S32x4096 (shapeCast S32x1 x2 shapeCasts_S32_S32x1) broadcasts_S32x1_S32x4096)
    (addf (subf
        (broadcastTo S32x4096 (shapeCast S1x4096 (multiReduction (F := Ideal) .add [0] S4096 (mulf (k0_pay6 x0) (k0_pay6 x0)) 0x00000000#32
          reduces_S512x4096_S4096 (.inl rfl) rfl) shapeCasts_S4096_S1x4096) broadcasts_S1x4096_S32x4096)
        (mulf (broadcast S32x4096 (Scalar.ofBits (F := Ideal) .f32 0x40000000#32))
          (matmul dot_S32x512_S512x4096_S32x4096_1_0_0_1_n_n none (truncf .bf16 x1 bitsLt_bf16_f32) (k0_pay7 x0) (constant (F := Ideal) S32x4096 .f32 0x00000000#32))))
      (broadcastTo S32x4096 (shapeCast S32x1 (shapeCast S32 x3 shapeCasts_S32_S32) shapeCasts_S32_S32x1) broadcasts_S32x1_S32x4096))

/-- The body's weights are the column softmax of its logits. -/
theorem weights_eq : k0_pay8 (F := Ideal) x0 x1 x2 x3 = colSoftmax (tileLogits x0 x1 x2 x3) := rfl

/-- At `(k, j)` the logit of column `j` against codeword `k`. -/
theorem tileLogits_apply (k : Fin 32) (j : Fin 4096) :
    tileLogits x0 x1 x2 x3 (ix2 k j) = logit (fun d => x0 (ix3 (0 : Fin 1) d j)) x1 x2 (fun k' => x3 (ix1 k')) k := by
  have hs : broadcastTo S32x4096 (shapeCast S32x1 x2 shapeCasts_S32_S32x1) broadcasts_S32x1_S32x4096 (ix2 k j) = x2 (ix1 k) := by
    rw [broadcastTo_a1_ab_apply, shapeCast_a_a1_apply]
  have hq : broadcastTo S32x4096 (shapeCast S32x1 (shapeCast S32 x3 shapeCasts_S32_S32) shapeCasts_S32_S32x1) broadcasts_S32x1_S32x4096 (ix2 k j) = x3 (ix1 k) := by
    rw [broadcastTo_a1_ab_apply, shapeCast_a_a1_apply, shapeCast_self]
  have hn : broadcastTo S32x4096 (shapeCast S1x4096 (multiReduction (F := Ideal) .add [0] S4096 (mulf (k0_pay6 x0) (k0_pay6 x0)) 0x00000000#32
          reduces_S512x4096_S4096 (.inl rfl) rfl) shapeCasts_S4096_S1x4096) broadcasts_S1x4096_S32x4096 (ix2 k j)
        = ∑ d : Fin 512, x0 (ix3 (0 : Fin 1) d j) * x0 (ix3 (0 : Fin 1) d j) := by
    rw [broadcastTo_1b_ab_apply, shapeCast_a_1a_apply]
    refine (multiReduction_add_cols (mulf (k0_pay6 (F := Ideal) x0) (k0_pay6 (F := Ideal) x0)) 0x00000000#32 reduces_S512x4096_S4096 (.inl rfl) rfl j).trans ?_
    refine Finset.sum_congr rfl fun d _ => ?_
    show k0_pay6 (F := Ideal) x0 (ix2 d j) * k0_pay6 (F := Ideal) x0 (ix2 d j) = _
    rw [tile_apply]
  have hp : matmul dot_S32x512_S512x4096_S32x4096_1_0_0_1_n_n none (truncf .bf16 x1 bitsLt_bf16_f32) (k0_pay7 x0) (constant (F := Ideal) S32x4096 .f32 0x00000000#32) (ix2 k j)
        = ∑ d : Fin 512, x0 (ix3 (0 : Fin 1) d j) * x1 (ix2 k d) := by
    rw [scores_apply]
    refine Finset.sum_congr rfl fun d _ => ?_
    show x1 (ix2 k d) * k0_pay6 (F := Ideal) x0 (ix2 d j) = _
    rw [tile_apply, mul_comm]
  show broadcastTo S32x4096 (shapeCast S32x1 x2 shapeCasts_S32_S32x1) broadcasts_S32x1_S32x4096 (ix2 k j)
      * ((broadcastTo S32x4096 (shapeCast S1x4096 (multiReduction (F := Ideal) .add [0] S4096 (mulf (k0_pay6 x0) (k0_pay6 x0)) 0x00000000#32
          reduces_S512x4096_S4096 (.inl rfl) rfl) shapeCasts_S4096_S1x4096) broadcasts_S1x4096_S32x4096 (ix2 k j)
        - Ideal.ofBits .f32 0x40000000#32 * matmul dot_S32x512_S512x4096_S32x4096_1_0_0_1_n_n none (truncf .bf16 x1 bitsLt_bf16_f32) (k0_pay7 x0) (constant (F := Ideal) S32x4096 .f32 0x00000000#32) (ix2 k j))
        + broadcastTo S32x4096 (shapeCast S32x1 (shapeCast S32 x3 shapeCasts_S32_S32) shapeCasts_S32_S32x1) broadcasts_S32x1_S32x4096 (ix2 k j)) = _
  rw [hs, hq, hn, hp]
  rfl

/-- The tile's weight of codeword `k` at column `j`: the softmax of the column's logits. -/
theorem weights_apply (k : Fin 32) (j : Fin 4096) :
    k0_pay8 (F := Ideal) x0 x1 x2 x3 (ix2 k j)
      = soft (logit (fun d => x0 (ix3 (0 : Fin 1) d j)) x1 x2 (fun k' => x3 (ix1 k'))) k := by
  rw [weights_eq, colSoftmax_apply]
  exact congrArg (fun l => soft l k) (funext fun k' => tileLogits_apply x0 x1 x2 x3 k' j)

/-- The tile's contribution to the weighted sums. -/
theorem mixed_apply (k : Fin 32) (d : Fin 512) :
    k0_pay9 (F := Ideal) x0 x1 x2 x3 (ix2 k d)
      = ∑ j : Fin 4096, k0_pay8 (F := Ideal) x0 x1 x2 x3 (ix2 k j) * x0 (ix3 (0 : Fin 1) d j) := by
  unfold k0_pay9
  refine (mix_apply _ _ k d).trans (Finset.sum_congr rfl fun j _ => ?_)
  show k0_pay8 (F := Ideal) x0 x1 x2 x3 (ix2 k j) * k0_pay6 (F := Ideal) x0 (ix2 d j) = _
  rw [tile_apply]

/-- The tile's contribution to the weight totals. -/
theorem total_apply (k : Fin 32) :
    k0_pay10 (F := Ideal) x0 x1 x2 x3 (ix1 k) = ∑ j : Fin 4096, k0_pay8 (F := Ideal) x0 x1 x2 x3 (ix2 k j) := by
  unfold k0_pay10
  exact multiReduction_add_rows _ _ _ _ _ k

/-! ## Accumulating, and the final block -/

/-- An accumulation adds the contribution to what was held. -/
theorem accumulate_apply (t held : Vec Ideal S32x512 .f32) (i : S32x512.Idx) : k0_pay1 (F := Ideal) t held i = held i + t i := by
  unfold k0_pay1
  rw [shapeCast_self]
  rfl

theorem accumulateTotals_apply (t held : Vec Ideal S32 .f32) (i : S32.Idx) : k0_pay2 (F := Ideal) t held i = held i + t i := by
  unfold k0_pay2
  rw [shapeCast_self]
  rfl

/-- The reset block is zero. -/
theorem reset_apply (i : S32x512.Idx) : k0_pay4 (F := Ideal) i = 0 := by
  unfold k0_pay4
  rw [shapeCast_self]
  exact Ideal.ofBits_zero_f32

theorem resetTotals_apply (i : S32.Idx) : k0_pay5 (F := Ideal) i = 0 := by
  unfold k0_pay5
  rw [shapeCast_self]
  exact Ideal.ofBits_zero_f32

/-- The final block at `(0, k, d)`: the weighted sum less the total times the codeword's entry. -/
theorem final_apply (acc : Vec Ideal S32x512 .f32) (tot : Vec Ideal S32 .f32) (C : Vec Ideal S32x512 .f32)
    (u : Fin 1) (k : Fin 32) (d : Fin 512) :
    k0_pay3 (F := Ideal) acc tot C (ix3 u k d) = acc (ix2 k d) - tot (ix1 k) * C (ix2 k d) := by
  unfold k0_pay3
  rw [shapeCast_ab_1ab_apply]
  show acc (ix2 k d) - broadcastTo S32x512 (shapeCast S32x1 tot shapeCasts_S32_S32x1) broadcasts_S32x1_S32x512 (ix2 k d) * C (ix2 k d) = _
  rw [broadcastTo_a1_ab_apply, shapeCast_a_a1_apply]

end Cert.KernelIdeal.Tile

end
-- ==== Proof.Whole.lean ====
import proofs.«146331_j14053132992759_2_alg».proof.Proof.Gen.KernelIdeal.Value
import proofs.«146331_j14053132992759_2_alg».proof.Proof.Pieces
import proofs.«146331_j14053132992759_2_alg».proof.Proof.Tile
import Idealize.ShloMosaic.Lib.Pipeline.Value
import Idealize.ShloMosaic.Lib.StableHlo.Run
import Idealize.ShloMosaic.Lib.Tactic

/-!
  The kernel's result array, as one function of the arrays the region finds.

  The grid has 32 points, `t = 4 b + r`: batch `b` of 8, run `r` of 4 consecutive runs of 4096 positions.  Each point adds
  its run's weighted column sums and weight totals to two accumulators, reset at `r = 0`; at `r = 3` the output block
  of batch `b` is written: the first accumulator less the second times the codewords.  Since the four runs' sums added in
  order from zero are the sums over all 16384 positions, that block is the specification's result for batch `b`, and the
  eight blocks cover the result array.
-/

open scoped BigOperators

noncomputable section

namespace Cert.KernelIdeal.Whole

open Cert.KernelIdeal Cert.KernelIdeal.Gen Cert.KernelIdeal.Value Cert.KernelIdeal.Pieces Cert.KernelIdeal.Tile
open Idealize.ShloMosaic Idealize.ShloMosaic.TcCoe Idealize.SL.Sem Idealize.ShloMosaic.ValueIdx
open Idealize.ShloMosaic.Pipeline (Dat)
open Cert.SoftAssign

variable (m : (ℓ : Loc nD τ sig) → Buf (Elt Ideal) ℓ) (ρ : Dev nD → PrngReg)

/-! ## What the region finds -/

/-- The input as the region finds it: the argument reshaped to batch × channel × position. -/
theorem entry_input (c : Dev nD) :
    (V m c main_v2 : S8x512x16384.Idx → EReal)
      = shapeCast S8x512x16384 (m ((c : Thread nD τ).loc main_arg0)) shapeCasts_S8x512x128x128_S8x512x16384 := by
  dsimp only [Gen.V, Gen.hostOps0]; after_results; rfl

/-- The codewords' squared norms as the region finds them: the host's sum along the channels, from zero. -/
theorem entry_codeSq (c : Dev nD) :
    (V m c main_v1 : S32.Idx → EReal)
      = Host.reduceAdd (F := Ideal) (mulf (m ((c : Thread nD τ).loc main_arg1)) (m ((c : Thread nD τ).loc main_arg1)))
          (constant (F := Ideal) S_ .f32 0x00000000#32) reducesTo_S32x512_S32_d1 h_S_ := by
  dsimp only [Gen.V, Gen.hostOps0]; after_results

/-- … which at codeword `k` is its squared norm. -/
theorem entry_codeSq_apply (c : Dev nD) (k : Fin 32) :
    V m c main_v1 (ix1 k) = codeSq (m ((c : Thread nD τ).loc main_arg1)) k := by
  rw [entry_codeSq]
  simp only [Host.reduceAdd, Ideal.hostReduceAdd_def]
  rw [Ideal.hostReduceAdd_single reducesTo_S32x512_S32_d1 (by decide)]
  show Ideal.ofBits .f32 0x00000000#32 + _ = _
  rw [Ideal.ofBits_zero_f32, zero_add]
  refine Finset.sum_congr rfl fun d _ => ?_
  have e : (by decide : S32x512.Reduces [1] S32).lift (ix1 k) d = ix2 k d :=
    funext fun a => Fin.ext (by match a with | ⟨0, _⟩ => rfl | ⟨1, _⟩ => rfl)
  rw [e]
  rfl

/-! ## The blocks a point reads

  Point `t = 4 b + r` of the grid reads run `r` of batch `b` of the input, and the whole of the codewords, the scales
  and the squared norms. -/

theorem inputBlockIndex : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

theorem codesBlockIndex : ∀ t : Fin cfg0.N, win0_1.index t (0 : Fin 2) = 0 ∧ win0_1.index t (1 : Fin 2) = 0 :=
  (by decide +kernel : ∀ t : Fin grid0.N, _)

theorem scalesBlockIndex : ∀ t : Fin cfg0.N, win0_2.index t (0 : Fin 1) = 0 :=
  (by decide +kernel : ∀ t : Fin grid0.N, _)

theorem normsBlockIndex : ∀ t : Fin cfg0.N, win0_3.index t (0 : Fin 1) = 0 :=
  (by decide +kernel : ∀ t : Fin grid0.N, _)

theorem resultBlockIndex : ∀ t : Fin cfg0.N, win0_4.index t (0 : Fin 3) = t.val / 4 ∧ win0_4.index t (1 : Fin 3) = 0
    ∧ win0_4.index t (2 : Fin 3) = 0 :=
  (by decide +kernel : ∀ t : Fin grid0.N, _)

theorem block0_apply (c : Dev nD) (t : Fin cfg0.N) (u : Fin 1) (d : Fin 512) (j : Fin 4096) (b : Fin 8) (r : Fin 4)
    (ht : t.val = 4 * b.val + r.val) :
    (iblk m c 0 t : Vec Ideal S1x512x4096 .f32) (ix3 u d j) = V m c main_v2 (ix3 b d (tileCol r j)) := by
  obtain ⟨e0, e1, e2⟩ := inputBlockIndex t
  unfold iblk
  rw [View.read_apply]
  show V m c main_v2 _ = V m c main_v2 _
  refine congrArg (V m c main_v2) (funext fun a => Fin.ext ?_)
  match a with
  | ⟨0, _⟩ => show win0_0.index t (0 : Fin 3) * 1 + 1 * u.val = b.val; have := u.isLt; have := r.isLt; omega
  | ⟨1, _⟩ => show win0_0.index t (1 : Fin 3) * 512 + 1 * d.val = d.val; omega
  | ⟨2, _⟩ => show win0_0.index t (2 : Fin 3) * 4096 + 1 * j.val = 4096 * r.val + j.val; have := r.isLt; omega

theorem block1_apply (c : Dev nD) (t : Fin cfg0.N) (k : Fin 32) (d : Fin 512) :
    (iblk m c 1 t : Vec Ideal S32x512 .f32) (ix2 k d) = m ((c : Thread nD τ).loc main_arg1) (ix2 k d) := by
  obtain ⟨e0, e1⟩ := codesBlockIndex t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 32 + 1 * k.val = k.val; omega
  | ⟨1, _⟩ => show win0_1.index t (1 : Fin 2) * 512 + 1 * d.val = d.val; omega

theorem block2_apply (c : Dev nD) (t : Fin cfg0.N) (k : Fin 32) :
    (iblk m c 2 t : Vec Ideal S32 .f32) (ix1 k) = m ((c : Thread nD τ).loc main_arg2) (ix1 k) := by
  have e0 := scalesBlockIndex t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 1) * 32 + 1 * k.val = k.val; omega

theorem block3_apply (c : Dev nD) (t : Fin cfg0.N) (k : Fin 32) :
    (iblk m c 3 t : Vec Ideal S32 .f32) (ix1 k) = codeSq (m ((c : Thread nD τ).loc main_arg1)) k := by
  have e0 := normsBlockIndex t
  unfold iblk
  rw [View.read_apply]
  show V m c main_v1 _ = _
  rw [← entry_codeSq_apply m c k]
  refine congrArg (V m c main_v1) (funext fun a => Fin.ext ?_)
  match a with
  | ⟨0, _⟩ => show win0_3.index t (0 : Fin 1) * 32 + 1 * k.val = k.val; omega

/-! ## The accumulators over the four tiles of a batch -/

/-- Point `t`'s contribution to the weighted sums, -/
abbrev mixAt (c : Dev nD) (t : Fin cfg0.N) : Vec Ideal S32x512 .f32 :=
  k0_pay9 (F := Ideal) (iblk m c 0 t) (iblk m c 1 t) (iblk m c 2 t) (iblk m c 3 t)
/-- and to the weight totals. -/
abbrev totAt (c : Dev nD) (t : Fin cfg0.N) : Vec Ideal S32 .f32 :=
  k0_pay10 (F := Ideal) (iblk m c 0 t) (iblk m c 1 t) (iblk m c 2 t) (iblk m c 3 t)

/-- The first tile of a batch leaves its contribution, added to zero, in the first accumulator, -/
theorem start0 (c : Dev nD) (n : ℕ) (h : n < cfg0.N) (h0 : n % 4 = 0) (i : S32x512.Idx) :
    (outsAt0 m c n h).2.1 i = 0 + mixAt m c ⟨n, h⟩ i := by
  have h1 : ¬n % 4 = 3 := by omega
  rw [outsAt0_A m c ⟨n, h⟩ h0 h1]
  dsimp only
  rw [scratch0_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)), accumulate_apply, reset_apply]

/-- and in the second. -/
theorem start1 (c : Dev nD) (n : ℕ) (h : n < cfg0.N) (h0 : n % 4 = 0) (i : S32.Idx) :
    (outsAt0 m c n h).2.2 i = 0 + totAt m c ⟨n, h⟩ i := by
  have h1 : ¬n % 4 = 3 := by omega
  rw [outsAt0_A m c ⟨n, h⟩ h0 h1]
  dsimp only
  rw [scratch1_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)), accumulateTotals_apply, resetTotals_apply]

/-- Every later tile of a batch adds its contribution to what the tile before left in the first accumulator, -/
theorem step0 (c : Dev nD) (n : ℕ) (h : n + 1 < cfg0.N) (hne : ¬(n + 1) % 4 = 0) (i : S32x512.Idx) :
    (outsAt0 m c (n + 1) h).2.1 i = (outsAt0 m c n (Nat.lt_of_succ_lt h)).2.1 i + mixAt m c ⟨n + 1, h⟩ i := by
  by_cases h1 : (n + 1) % 4 = 3
  · rw [outsAt0_C m c ⟨n + 1, h⟩ hne h1]
    dsimp only
    rw [scratch0_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)), accumulate_apply]
    rfl
  · rw [outsAt0_B m c ⟨n + 1, h⟩ hne h1]
    dsimp only
    rw [scratch0_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)), accumulate_apply]
    rfl

/-- and in the second. -/
theorem step1 (c : Dev nD) (n : ℕ) (h : n + 1 < cfg0.N) (hne : ¬(n + 1) % 4 = 0) (i : S32.Idx) :
    (outsAt0 m c (n + 1) h).2.2 i = (outsAt0 m c n (Nat.lt_of_succ_lt h)).2.2 i + totAt m c ⟨n + 1, h⟩ i := by
  by_cases h1 : (n + 1) % 4 = 3
  · rw [outsAt0_C m c ⟨n + 1, h⟩ hne h1]
    dsimp only
    rw [scratch1_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)), accumulateTotals_apply]
    rfl
  · rw [outsAt0_B m c ⟨n + 1, h⟩ hne h1]
    dsimp only
    rw [scratch1_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)), accumulateTotals_apply]
    rfl

/-- After the third tile of a batch the first accumulator holds the three contributions added in order from zero, -/
theorem three0 (c : Dev nD) (n : ℕ) (h : n + 1 + 1 < cfg0.N) (h0 : n % 4 = 0) (i : S32x512.Idx) :
    (outsAt0 m c (n + 1 + 1) h).2.1 i
      = ((0 + mixAt m c ⟨n, by omega⟩ i) + mixAt m c ⟨n + 1, by omega⟩ i) + mixAt m c ⟨n + 1 + 1, h⟩ i := by
  rw [step0 m c (n + 1) h (by omega) i, step0 m c n (by omega) (by omega) i, start0 m c n (by omega) h0 i]

/-- and the second likewise. -/
theorem three1 (c : Dev nD) (n : ℕ) (h : n + 1 + 1 < cfg0.N) (h0 : n % 4 = 0) (i : S32.Idx) :
    (outsAt0 m c (n + 1 + 1) h).2.2 i
      = ((0 + totAt m c ⟨n, by omega⟩ i) + totAt m c ⟨n + 1, by omega⟩ i) + totAt m c ⟨n + 1 + 1, h⟩ i := by
  rw [step1 m c (n + 1) h (by omega) i, step1 m c n (by omega) (by omega) i, start1 m c n (by omega) h0 i]

/-! ## A tile's contribution, in the specification's terms -/

/-- The input as the region finds it, batch × channel × position; the codewords; the scales. -/
abbrev Win (c : Dev nD) : Arr3 := V m c main_v2
abbrev Cw (c : Dev nD) : Code := m ((c : Thread nD τ).loc main_arg1)
abbrev Sc (c : Dev nD) : Scale := m ((c : Thread nD τ).loc main_arg2)

theorem codes_eq (c : Dev nD) (t : Fin cfg0.N) : (iblk m c 1 t : Vec Ideal S32x512 .f32) = Cw m c :=
  funext fun i => by
    obtain ⟨k, d, rfl⟩ : ∃ (k : Fin 32) (d : Fin 512), i = ix2 k d := ⟨i 0, i 1, eq_ix2 i⟩
    exact block1_apply m c t k d

theorem scales_eq (c : Dev nD) (t : Fin cfg0.N) : (iblk m c 2 t : Vec Ideal S32 .f32) = Sc m c :=
  funext fun i => by
    obtain ⟨k, rfl⟩ : ∃ (k : Fin 32), i = ix1 k := ⟨i 0, eq_ix1 i⟩
    exact block2_apply m c t k

/-- At point `t = 4 b + r` the body's weight of codeword `k` at column `j` is the weight of position `j` of run `r`. -/
theorem weight_at (c : Dev nD) (t : Fin cfg0.N) (b : Fin 8) (r : Fin 4) (ht : t.val = 4 * b.val + r.val) (k : Fin 32)
    (j : Fin 4096) :
    k0_pay8 (F := Ideal) (iblk m c 0 t) (iblk m c 1 t) (iblk m c 2 t) (iblk m c 3 t) (ix2 k j) = assign (Win m c) (Cw m c) (Sc m c) b (tileCol r j) k := by
  refine (weights_apply (iblk m c 0 t) (iblk m c 1 t) (iblk m c 2 t) (iblk m c 3 t) k j).trans ?_
  have e0 : (fun d => (iblk m c 0 t : Vec Ideal S1x512x4096 .f32) (ix3 (0 : Fin 1) d j)) = fun d => Win m c (ix3 b d (tileCol r j)) :=
    funext fun d => block0_apply m c t 0 d j b r ht
  have e3 : (fun k' => (iblk m c 3 t : Vec Ideal S32 .f32) (ix1 k')) = codeSq (Cw m c) :=
    funext fun k' => block3_apply m c t k'
  rw [e0, e3, codes_eq m c t, scales_eq m c t]
  rfl

/-- Its contribution to the weighted sums is the sum over run `r`, -/
theorem mix_at (c : Dev nD) (t : Fin cfg0.N) (b : Fin 8) (r : Fin 4) (ht : t.val = 4 * b.val + r.val) (k : Fin 32)
    (d : Fin 512) :
    mixAt m c t (ix2 k d) = ∑ j : Fin 4096, assign (Win m c) (Cw m c) (Sc m c) b (tileCol r j) k * Win m c (ix3 b d (tileCol r j)) := by
  refine (mixed_apply (iblk m c 0 t) (iblk m c 1 t) (iblk m c 2 t) (iblk m c 3 t) k d).trans (Finset.sum_congr rfl fun j _ => ?_)
  rw [weight_at m c t b r ht k j, block0_apply m c t 0 d j b r ht]

/-- and so is its contribution to the weight totals. -/
theorem tot_at (c : Dev nD) (t : Fin cfg0.N) (b : Fin 8) (r : Fin 4) (ht : t.val = 4 * b.val + r.val) (k : Fin 32) :
    totAt m c t (ix1 k) = ∑ j : Fin 4096, assign (Win m c) (Cw m c) (Sc m c) b (tileCol r j) k :=
  (total_apply (iblk m c 0 t) (iblk m c 1 t) (iblk m c 2 t) (iblk m c 3 t) k).trans (Finset.sum_congr rfl fun j _ => weight_at m c t b r ht k j)

/-! ## The block the last tile of a batch writes -/

/-- At the last tile of batch `b` the output block holds the specification's result for that batch: the four runs'
    sums, added in order from zero, are the sums over all positions. -/
theorem written_apply (c : Dev nD) (n : ℕ) (h : n + 1 + 1 + 1 < cfg0.N) (h0 : n % 4 = 0)
    (hc0 : ¬cond0_0 (grid0.coords (⟨n + 1 + 1 + 1, h⟩ : Fin cfg0.N))) (hc1 : cond0_1 (grid0.coords (⟨n + 1 + 1 + 1, h⟩ : Fin cfg0.N))) (b : Fin 8) (hb : n = 4 * b.val)
    (u : Fin 1) (k : Fin 32) (d : Fin 512) :
    out0_C_4 (F := Ideal) c (grid0.coords (⟨n + 1 + 1 + 1, h⟩ : Fin cfg0.N)) (ms0_0 (⟨n + 1 + 1 + 1, h⟩ : Fin cfg0.N)) (hs0_0 (⟨n + 1 + 1 + 1, h⟩ : Fin cfg0.N)) (ms0_1 (⟨n + 1 + 1 + 1, h⟩ : Fin cfg0.N)) (hs0_1 (⟨n + 1 + 1 + 1, h⟩ : Fin cfg0.N)) (ms0_2 (⟨n + 1 + 1 + 1, h⟩ : Fin cfg0.N)) (hs0_2 (⟨n + 1 + 1 + 1, h⟩ : Fin cfg0.N)) (ms0_3 (⟨n + 1 + 1 + 1, h⟩ : Fin cfg0.N)) (hs0_3 (⟨n + 1 + 1 + 1, h⟩ : Fin cfg0.N)) (ms0_4 (⟨n + 1 + 1 + 1, h⟩ : Fin cfg0.N)) (hs0_4 (⟨n + 1 + 1 + 1, h⟩ : Fin cfg0.N)) scM0_0 (Memref.isWhole_whole _) scM0_1 (Memref.isWhole_whole _) hc0 hc1 (iblk m c 0 (⟨n + 1 + 1 + 1, h⟩ : Fin cfg0.N)) (iblk m c 1 (⟨n + 1 + 1 + 1, h⟩ : Fin cfg0.N)) (iblk m c 2 (⟨n + 1 + 1 + 1, h⟩ : Fin cfg0.N)) (iblk m c 3 (⟨n + 1 + 1 + 1, h⟩ : Fin cfg0.N))
        (outsAt0 m c (n + 1 + 1) (Nat.lt_of_succ_lt h)).2.1 (outsAt0 m c (n + 1 + 1) (Nat.lt_of_succ_lt h)).2.2 (ix3 u k d)
      = resultAt (Win m c) (Cw m c) (Sc m c) b k d := by
  have t0 : ((⟨n, by omega⟩ : Fin cfg0.N)).val = 4 * b.val + (0 : Fin 4).val := by show n = 4 * b.val + 0; omega
  have t1 : ((⟨n + 1, by omega⟩ : Fin cfg0.N)).val = 4 * b.val + (1 : Fin 4).val := by show n + 1 = 4 * b.val + 1; omega
  have t2 : ((⟨n + 1 + 1, by omega⟩ : Fin cfg0.N)).val = 4 * b.val + (2 : Fin 4).val := by show n + 1 + 1 = 4 * b.val + 2; omega
  have t3 : ((⟨n + 1 + 1 + 1, h⟩ : Fin cfg0.N)).val = 4 * b.val + (3 : Fin 4).val := by show n + 1 + 1 + 1 = 4 * b.val + 3; omega
  rw [out4_C (F := Ideal) c (grid0.coords (⟨n + 1 + 1 + 1, h⟩ : Fin cfg0.N)) (ms0_0 (⟨n + 1 + 1 + 1, h⟩ : Fin cfg0.N)) (hs0_0 (⟨n + 1 + 1 + 1, h⟩ : Fin cfg0.N)) (ms0_1 (⟨n + 1 + 1 + 1, h⟩ : Fin cfg0.N)) (hs0_1 (⟨n + 1 + 1 + 1, h⟩ : Fin cfg0.N)) (ms0_2 (⟨n + 1 + 1 + 1, h⟩ : Fin cfg0.N)) (hs0_2 (⟨n + 1 + 1 + 1, h⟩ : Fin cfg0.N)) (ms0_3 (⟨n + 1 + 1 + 1, h⟩ : Fin cfg0.N)) (hs0_3 (⟨n + 1 + 1 + 1, h⟩ : Fin cfg0.N)) (ms0_4 (⟨n + 1 + 1 + 1, h⟩ : Fin cfg0.N)) (hs0_4 (⟨n + 1 + 1 + 1, h⟩ : Fin cfg0.N)) scM0_0 (Memref.isWhole_whole _) scM0_1 (Memref.isWhole_whole _) hc0 hc1 (iblk m c 0 (⟨n + 1 + 1 + 1, h⟩ : Fin cfg0.N)) (iblk m c 1 (⟨n + 1 + 1 + 1, h⟩ : Fin cfg0.N)) (iblk m c 2 (⟨n + 1 + 1 + 1, h⟩ : Fin cfg0.N)) (iblk m c 3 (⟨n + 1 + 1 + 1, h⟩ : Fin cfg0.N)) _ _, final_apply, accumulate_apply, accumulateTotals_apply,
    three0 m c n (Nat.lt_of_succ_lt h) h0, three1 m c n (Nat.lt_of_succ_lt h) h0,
    mix_at m c _ b 0 t0 k d, mix_at m c _ b 1 t1 k d, mix_at m c _ b 2 t2 k d, (show k0_pay9 (F := Ideal) (iblk m c 0 (⟨n + 1 + 1 + 1, h⟩ : Fin cfg0.N)) (iblk m c 1 (⟨n + 1 + 1 + 1, h⟩ : Fin cfg0.N)) (iblk m c 2 (⟨n + 1 + 1 + 1, h⟩ : Fin cfg0.N)) (iblk m c 3 (⟨n + 1 + 1 + 1, h⟩ : Fin cfg0.N)) (ix2 k d) = _ from mix_at m c (⟨n + 1 + 1 + 1, h⟩ : Fin cfg0.N) b 3 t3 k d),
    tot_at m c _ b 0 t0 k, tot_at m c _ b 1 t1 k, tot_at m c _ b 2 t2 k, (show k0_pay10 (F := Ideal) (iblk m c 0 (⟨n + 1 + 1 + 1, h⟩ : Fin cfg0.N)) (iblk m c 1 (⟨n + 1 + 1 + 1, h⟩ : Fin cfg0.N)) (iblk m c 2 (⟨n + 1 + 1 + 1, h⟩ : Fin cfg0.N)) (iblk m c 3 (⟨n + 1 + 1 + 1, h⟩ : Fin cfg0.N)) (ix1 k) = _ from tot_at m c (⟨n + 1 + 1 + 1, h⟩ : Fin cfg0.N) b 3 t3 k),
    block1_apply m c _ k d]
  unfold resultAt
  rw [sum_tiles (fun n' => assign (Win m c) (Cw m c) (Sc m c) b n' k * Win m c (ix3 b d n')), sum_tiles (fun n' => assign (Win m c) (Cw m c) (Sc m c) b n' k)]

/-! ## From the blocks to the array -/

/-- The specification's result of the arrays the region finds. -/
abbrev G (c : Dev nD) : Buf (Elt Ideal) ((c : Thread nD τ).loc main_v3) := result (Win m c) (Cw m c) (Sc m c)

/-- What a flushing point writes back is its block of the specification's result. -/
theorem flushed_eq (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  have hN : cfg0.N = 32 := N_0
  obtain ⟨tv, ht⟩ := t
  obtain ⟨n, rfl⟩ : ∃ n, tv = n + 1 + 1 + 1 := ⟨tv - 3, by dsimp only at h3; omega⟩
  have h0 : n % 4 = 0 := by dsimp only at h3; omega
  have hb : n / 4 < 8 := by omega
  obtain ⟨e0, e1, e2⟩ := resultBlockIndex ⟨n + 1 + 1 + 1, ht⟩
  rw [flushed4_C m c ⟨n + 1 + 1 + 1, ht⟩ (by dsimp only; omega) h3]
  funext y
  obtain ⟨u, k, d, rfl⟩ : ∃ (u : Fin 1) (k : Fin 32) (d : Fin 512), y = ix3 u k d := ⟨y 0, y 1, y 2, eq_ix3 y⟩
  rw [View.read_apply]
  refine (written_apply m c n ht h0 _ _ ⟨n / 4, hb⟩ (by dsimp only; omega) u k d).trans ?_
  have e : ((cfg0.win 4).blk ⟨n + 1 + 1 + 1, ht⟩).view.emb (ix3 u k d) = ix3 (⟨n / 4, hb⟩ : Fin 8) k d :=
    funext fun a => Fin.ext (by
      match a with
      | ⟨0, _⟩ => show win0_4.index ⟨n + 1 + 1 + 1, ht⟩ (0 : Fin 3) * 1 + 1 * u.val = n / 4; have := u.isLt; dsimp only at e0; omega
      | ⟨1, _⟩ => show win0_4.index ⟨n + 1 + 1 + 1, ht⟩ (1 : Fin 3) * 32 + 1 * k.val = k.val; omega
      | ⟨2, _⟩ => show win0_4.index ⟨n + 1 + 1 + 1, ht⟩ (2 : Fin 3) * 512 + 1 * d.val = d.val; omega)
  rw [e]
  rfl

/-- An index of the result array is in point `t`'s block iff each coordinate is in the block's range on its axis. -/
theorem mem_resultBlock (t : Fin cfg0.N) (i : S8x32x512.Idx) :
    i ∈ ((cfg0.win 4).blk t).view.set ↔ ∀ a : Fin 3, win0_4.index t a * S1x32x512.size a ≤ (i a).val ∧ (i a).val < win0_4.index t a * S1x32x512.size a + S1x32x512.size a := by
  show i ∈ ((View.whole main_v3).slice (win0_4.rect t)).set ↔ _
  rw [View.set_slice_whole, Rect.mem_set_unit]
  exact Iff.rfl

/-- Every index of the result array is in the block the last tile of its batch writes back. -/
theorem cover (i : S8x32x512.Idx) : ∃ t : Fin cfg0.N, (cfg0.win 4).flush t = true ∧ i ∈ ((cfg0.win 4).blk t).view.set := by
  have hN : cfg0.N = 32 := N_0
  have hi0 : (i 0).val < 8 := (i 0).isLt
  have hi1 : (i 1).val < 32 := (i 1).isLt
  have hi2 : (i 2).val < 512 := (i 2).isLt
  have hlt : 4 * (i 0).val + 3 < cfg0.N := by omega
  obtain ⟨e0, e1, e2⟩ := resultBlockIndex ⟨4 * (i 0).val + 3, hlt⟩
  refine ⟨⟨4 * (i 0).val + 3, hlt⟩, (flush0_4 _).mpr (by dsimp only; omega), ?_⟩
  rw [mem_resultBlock]
  intro a
  match a with
  | ⟨0, _⟩ => show win0_4.index ⟨4 * (i 0).val + 3, hlt⟩ (0 : Fin 3) * 1 ≤ (i 0).val ∧ (i 0).val < win0_4.index ⟨4 * (i 0).val + 3, hlt⟩ (0 : Fin 3) * 1 + 1; dsimp only at e0; omega
  | ⟨1, _⟩ => show win0_4.index ⟨4 * (i 0).val + 3, hlt⟩ (1 : Fin 3) * 32 ≤ (i 1).val ∧ (i 1).val < win0_4.index ⟨4 * (i 0).val + 3, hlt⟩ (1 : Fin 3) * 32 + 32; omega
  | ⟨2, _⟩ => show win0_4.index ⟨4 * (i 0).val + 3, hlt⟩ (2 : Fin 3) * 512 ≤ (i 2).val ∧ (i 2).val < win0_4.index ⟨4 * (i 0).val + 3, hlt⟩ (2 : Fin 3) * 512 + 512; omega

/-- So the result array ends holding the specification's result of the arrays the region finds. -/
theorem final (c : Dev nD) : (dats m 0 c).arrAt 4 cfg0.N = G m c :=
  (dats m 0 c).arrAt_eq_of_cover 4 (G m c) (fun t hf => flushed_eq m c t hf) cover

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefValue.lean ====
import proofs.«146331_j14053132992759_2_alg».proof.Proof.Gen.ReferenceIdeal.Read
import proofs.«146331_j14053132992759_2_alg».proof.Proof.Spec
import proofs.«146331_j14053132992759_2_alg».proof.Proof.LibFoldMax
import Idealize.ShloMosaic.Lib.ValueIdx
import Idealize.ShloMosaic.PureOps.Ideal.Laws

/-!
  The reference, stage by stage, is the specification.

  With `W` the input reshaped to batch × channel × position, the reference transposes it to batch × position × channel,
  so its entry `(b, n, d)` is `W (b, d, n)`.  Its squared norms, inner products with the codewords, logits, their
  maximum from `−∞`, the exponentials, their sum and the quotient are, at `(b, n, k)`, the weight `assign W C s b n k`; the
  two contractions over the positions are the two sums of `resultAt`.  Host sums start from the literal zero, which is
  the extended real `0`.
-/

open scoped BigOperators

noncomputable section

namespace Cert.ReferenceIdeal.RefValue

open Cert.ReferenceIdeal Cert.ReferenceIdeal.Gen Cert.ReferenceIdeal.Read Idealize.ShloMosaic Idealize.ShloMosaic.ValueIdx
open Cert.SoftAssign Cert.LibFoldMax

variable (x0 : (⟨S8x512x128x128, .f32⟩ : BufTy).Contents (Elt Ideal)) (x1 : (⟨S32x512, .f32⟩ : BufTy).Contents (Elt Ideal))
  (x2 : (⟨S32, .f32⟩ : BufTy).Contents (Elt Ideal))

/-- The input as batch × channel × position. -/
abbrev W : Arr3 := val_main_v0 (F := Ideal) x0

/-- The transposed input at `(b, n, d)` is the input at `(b, d, n)`. -/
theorem transposed_apply (b : Fin 8) (n : Fin 16384) (d : Fin 512) :
    val_main_v1 (F := Ideal) x0 (ix3 b n d) = W x0 (ix3 b d n) := by
  rw [val_main_v1_apply]
  exact congrArg (val_main_v0 (F := Ideal) x0) (funext fun a => Fin.ext (by match a with | ⟨0, _⟩ => rfl | ⟨1, _⟩ => rfl | ⟨2, _⟩ => rfl))

/-- A position's squared norm. -/
theorem sqnorm_apply (b : Fin 8) (n : Fin 16384) :
    val_main_v3 (F := Ideal) x0 (ix2 b n) = ∑ d : Fin 512, W x0 (ix3 b d n) * W x0 (ix3 b d n) := by
  rw [val_main_v3_apply]
  have hz : val_main_cst (F := Ideal) (Shape.Idx.first h_S_) = 0 := Ideal.ofBits_zero_f32
  rw [hz, zero_add]
  refine Finset.sum_congr rfl fun d _ => ?_
  have e : idx_main_v3 (ix2 b n) d = ix3 b n d := funext fun a => Fin.ext (by match a with | ⟨0, _⟩ => rfl | ⟨1, _⟩ => rfl | ⟨2, _⟩ => rfl)
  rw [e, val_main_v2_apply]
  show val_main_v1 (F := Ideal) x0 (ix3 b n d) * val_main_v1 (F := Ideal) x0 (ix3 b n d) = _
  rw [transposed_apply]

/-- A codeword's squared norm. -/
theorem codeSq_apply (k : Fin 32) : val_main_v6 (F := Ideal) x1 (ix1 k) = codeSq x1 k := by
  rw [val_main_v6_apply]
  have hz : val_main_cst_0 (F := Ideal) (Shape.Idx.first h_S_) = 0 := Ideal.ofBits_zero_f32
  rw [hz, zero_add]
  refine Finset.sum_congr rfl fun d _ => ?_
  have e : idx_main_v6 (ix1 k) d = ix2 k d := funext fun a => Fin.ext (by match a with | ⟨0, _⟩ => rfl | ⟨1, _⟩ => rfl)
  rw [e, val_main_v5_apply]
  rfl

/-- A position's inner product with a codeword. -/
theorem inner_apply (b : Fin 8) (n : Fin 16384) (k : Fin 32) :
    val_main_v7 (F := Ideal) x0 x1 (ix3 b n k) = ∑ d : Fin 512, W x0 (ix3 b d n) * x1 (ix2 k d) := by
  rw [val_main_v7_apply]
  refine Finset.sum_congr rfl fun d _ => ?_
  have el : lidx_main_v7 (ix3 b n k) d = ix3 b n d := funext fun a => Fin.ext (by match a with | ⟨0, _⟩ => rfl | ⟨1, _⟩ => rfl | ⟨2, _⟩ => rfl)
  have er : ridx_main_v7 (ix3 b n k) d = ix2 k d := funext fun a => Fin.ext (by match a with | ⟨0, _⟩ => rfl | ⟨1, _⟩ => rfl)
  rw [el, er, transposed_apply]

/-- The logit of position `n` of batch `b` against codeword `k`. -/
theorem logit_apply (b : Fin 8) (n : Fin 16384) (k : Fin 32) :
    val_main_v17 (F := Ideal) x0 x1 x2 (ix3 b n k) = logit (fun d => W x0 (ix3 b d n)) x1 x2 (codeSq x1) k := by
  have h16 : val_main_v16 (F := Ideal) x2 (ix3 b n k) = x2 (ix1 k) := by
    rw [val_main_v16_apply, val_main_v15_apply]
    exact congrArg x2 (funext fun a => Fin.ext (by match a with | ⟨0, _⟩ => rfl))
  have h13 : val_main_v13 (F := Ideal) x1 (ix3 b n k) = codeSq x1 k := by
    rw [val_main_v13_apply, val_main_v12_apply]
    have e : idx_main_v12 (idx_main_v13 (ix3 b n k)) = ix1 k := funext fun a => Fin.ext (by match a with | ⟨0, _⟩ => rfl)
    rw [e, codeSq_apply]
  have h10 : val_main_v10 (F := Ideal) x0 (ix3 b n k) = ∑ d : Fin 512, W x0 (ix3 b d n) * W x0 (ix3 b d n) := by
    rw [val_main_v10_apply, val_main_v4_apply]
    have e : idx_main_v4 (idx_main_v10 (ix3 b n k)) = ix2 b n := funext fun a => Fin.ext (by match a with | ⟨0, _⟩ => rfl | ⟨1, _⟩ => rfl)
    rw [e, sqnorm_apply]
  have h8 : val_main_v8 (F := Ideal) (ix3 b n k) = two := by
    rw [val_main_v8_apply]
    rfl
  rw [val_main_v17_apply, val_main_v14_apply, val_main_v11_apply, val_main_v9_apply, h16, h13, h10, h8, inner_apply]
  rfl

/-- The largest logit of a position, from `−∞`. -/
theorem peak_apply (b : Fin 8) (n : Fin 16384) :
    val_main_v20 (F := Ideal) x0 x1 x2 (ix2 b n) = peak (fun k => val_main_v17 (F := Ideal) x0 x1 x2 (ix3 b n k)) := by
  have h19 : val_main_v19 (F := Ideal) (ix2 b n) = ninf := by
    rw [val_main_v19_apply]
    rfl
  have h18 : val_main_v18 (F := Ideal) x0 x1 x2 (ix2 b n)
      = (Finset.univ : Finset (Fin 32)).fold max ninf (fun k => val_main_v17 (F := Ideal) x0 x1 x2 (ix3 b n k)) := by
    unfold val_main_v18
    exact hostReduce_maximumf_last3 (val_main_v17 (F := Ideal) x0 x1 x2) (val_main_cst_2 (F := Ideal))
      reducesTo_S8x16384x32_S8x16384_d2 (by decide) h_S_ b n
  rw [val_main_v20_apply, h19, h18]
  rfl

/-- The exponential of a logit less the position's largest. -/
theorem expw_apply (b : Fin 8) (n : Fin 16384) (k : Fin 32) :
    val_main_v24 (F := Ideal) x0 x1 x2 (ix3 b n k)
      = Ideal.exp (val_main_v17 (F := Ideal) x0 x1 x2 (ix3 b n k) - peak (fun k' => val_main_v17 (F := Ideal) x0 x1 x2 (ix3 b n k'))) := by
  have e : idx_main_v21 (idx_main_v22 (ix3 b n k)) = ix2 b n := funext fun a => Fin.ext (by match a with | ⟨0, _⟩ => rfl | ⟨1, _⟩ => rfl)
  rw [val_main_v24_apply, val_main_v23_apply, val_main_v22_apply, val_main_v21_apply, e, peak_apply]
  rfl

/-- The sum of a position's exponentials. -/
theorem den_apply (b : Fin 8) (n : Fin 16384) (k : Fin 32) :
    val_main_v27 (F := Ideal) x0 x1 x2 (ix3 b n k)
      = ∑ k' : Fin 32, Ideal.exp (val_main_v17 (F := Ideal) x0 x1 x2 (ix3 b n k') - peak (fun k'' => val_main_v17 (F := Ideal) x0 x1 x2 (ix3 b n k''))) := by
  have e : idx_main_v26 (idx_main_v27 (ix3 b n k)) = ix2 b n := funext fun a => Fin.ext (by match a with | ⟨0, _⟩ => rfl | ⟨1, _⟩ => rfl)
  have hz : val_main_cst_4 (F := Ideal) (Shape.Idx.first h_S_) = 0 := Ideal.ofBits_zero_f32
  rw [val_main_v27_apply, val_main_v26_apply, e, val_main_v25_apply, hz, zero_add]
  refine Finset.sum_congr rfl fun k' _ => ?_
  have e' : idx_main_v25 (ix2 b n) k' = ix3 b n k' := funext fun a => Fin.ext (by match a with | ⟨0, _⟩ => rfl | ⟨1, _⟩ => rfl | ⟨2, _⟩ => rfl)
  rw [e', expw_apply]

/-- The weight of codeword `k` at position `n` of batch `b`. -/
theorem weight_apply (b : Fin 8) (n : Fin 16384) (k : Fin 32) :
    val_main_v28 (F := Ideal) x0 x1 x2 (ix3 b n k) = assign (W x0) x1 x2 b n k := by
  rw [val_main_v28_apply, expw_apply, den_apply]
  simp only [logit_apply]
  rfl

/-- The reference's last stage is the specification's result of the reshaped input. -/
theorem result_eq : val_main_v36 (F := Ideal) x0 x1 x2 = result (W x0) x1 x2 := by
  funext i
  obtain ⟨b, k, d, rfl⟩ : ∃ (b : Fin 8) (k : Fin 32) (d : Fin 512), i = ix3 b k d := ⟨i 0, i 1, i 2, eq_ix3 i⟩
  have h29 : val_main_v29 (F := Ideal) x0 x1 x2 (ix3 b k d) = ∑ n : Fin 16384, assign (W x0) x1 x2 b n k * W x0 (ix3 b d n) := by
    rw [val_main_v29_apply]
    refine Finset.sum_congr rfl fun n _ => ?_
    have el : lidx_main_v29 (ix3 b k d) n = ix3 b n k := funext fun a => Fin.ext (by match a with | ⟨0, _⟩ => rfl | ⟨1, _⟩ => rfl | ⟨2, _⟩ => rfl)
    have er : ridx_main_v29 (ix3 b k d) n = ix3 b n d := funext fun a => Fin.ext (by match a with | ⟨0, _⟩ => rfl | ⟨1, _⟩ => rfl | ⟨2, _⟩ => rfl)
    rw [el, er, weight_apply, transposed_apply]
  have h33 : val_main_v33 (F := Ideal) x0 x1 x2 (ix3 b k d) = ∑ n : Fin 16384, assign (W x0) x1 x2 b n k := by
    have e : idx_main_v31 (idx_main_v33 (ix3 b k d)) = ix2 b k := funext fun a => Fin.ext (by match a with | ⟨0, _⟩ => rfl | ⟨1, _⟩ => rfl)
    have hz : val_main_cst_5 (F := Ideal) (Shape.Idx.first h_S_) = 0 := Ideal.ofBits_zero_f32
    rw [val_main_v33_apply, val_main_v31_apply, e, val_main_v30_apply, hz, zero_add]
    refine Finset.sum_congr rfl fun n _ => ?_
    have e' : idx_main_v30 (ix2 b k) n = ix3 b n k := funext fun a => Fin.ext (by match a with | ⟨0, _⟩ => rfl | ⟨1, _⟩ => rfl | ⟨2, _⟩ => rfl)
    rw [e', weight_apply]
  have h34 : val_main_v34 (F := Ideal) x1 (ix3 b k d) = x1 (ix2 k d) := by
    rw [val_main_v34_apply, val_main_v32_apply]
    exact congrArg x1 (funext fun a => Fin.ext (by match a with | ⟨0, _⟩ => rfl | ⟨1, _⟩ => rfl))
  rw [val_main_v36_apply, val_main_v35_apply, h29, h33, h34]
  rfl

end Cert.ReferenceIdeal.RefValue

end
-- ==== Proof.lean ====
/-
  Soft assignment of positions to codewords with aggregated residuals: the kernel against its reference, over the
  extended reals.

  Both programs compute, at batch `b`, codeword `k`, channel `d`,
  `∑ₙ a (b, n, k) · X (b, d, n) − (∑ₙ a (b, n, k)) · C (k, d)`, where the weights `a (b, n, ·)` are the softmax over the
  32 codewords of the logits `s k · (‖x‖² − 2 ⟨x, C k⟩ + ‖C k‖²)` of the column `x = X (b, ·, n)` (Proof/Spec.lean).
  The reference computes it on the whole arrays (Proof/RefValue.lean).  The kernel walks each batch in four runs of 4096
  positions, adding each run's weighted column sums and weight totals to two accumulators, and writes the batch's block
  after the fourth (Proof/Pieces.lean, Proof/Tile.lean, Proof/Whole.lean).  The two agree because addition of extended
  reals is commutative and associative — the four runs' sums, added in order from zero, are the sum over all positions —
  and multiplication is commutative; no finiteness of the inputs is used.  A change of float format is the identity
  here, which is the one rewrite of the idealized kernel (`preserves`).
-/
import proofs.«146331_j14053132992759_2_alg».proof.Defs
import proofs.«146331_j14053132992759_2_alg».proof.Proof.Gen.Kernel
import proofs.«146331_j14053132992759_2_alg».proof.Proof.Gen.Kernel.Skeleton
import proofs.«146331_j14053132992759_2_alg».proof.Proof.Gen.Kernel.Launch
import proofs.«146331_j14053132992759_2_alg».proof.Proof.Gen.Kernel.Points
import proofs.«146331_j14053132992759_2_alg».proof.Proof.Gen.Kernel.Frame
import proofs.«146331_j14053132992759_2_alg».proof.Proof.Gen.KernelIdeal
import proofs.«146331_j14053132992759_2_alg».proof.Proof.Gen.KernelIdeal.Skeleton
import proofs.«146331_j14053132992759_2_alg».proof.Proof.Gen.KernelIdeal.Launch
import proofs.«146331_j14053132992759_2_alg».proof.Proof.Gen.KernelIdeal.Points
import proofs.«146331_j14053132992759_2_alg».proof.Proof.Gen.KernelIdeal.Frame
import proofs.«146331_j14053132992759_2_alg».proof.Proof.Gen.ReferenceIdeal
import proofs.«146331_j14053132992759_2_alg».proof.Proof.Gen.Pre_finite_inputs
import proofs.«146331_j14053132992759_2_alg».proof.Proof.Gen.KernelIdeal.Value
import proofs.«146331_j14053132992759_2_alg».proof.Proof.Gen.ReferenceIdeal.Run
import proofs.«146331_j14053132992759_2_alg».proof.Proof.Gen.ReferenceIdeal.Read
import proofs.«146331_j14053132992759_2_alg».proof.Proof.Whole
import proofs.«146331_j14053132992759_2_alg».proof.Proof.RefValue
import Idealize.ShloMosaic.Adequacy
import Idealize.ShloMosaic.Init

noncomputable section

namespace Cert.Proof

open Idealize.ShloMosaic Idealize.SL.Sem

/-- The kernel as printed runs, faults nowhere and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing the weights to bf16 and widening them back is the identity on extended reals. -/
theorem preserves : Cert.preserves_Kernel_KernelIdeal := IdealRules.truncf_extf.statement _ .f32 .bf16

/-- From memories that agree on the arguments both programs end with the specification's result of the same arrays:
    the kernel's region finds the input reshaped to batch × channel × position, which is the reference's first stage. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq, (hagree c).1, (hagree c).2.1,
    (hagree c).2.2]
  show Cert.SoftAssign.result _ _ _ = Cert.SoftAssign.result (Cert.KernelIdeal.Gen.V m c Cert.KernelIdeal.main_v2) _ _
  rw [Cert.KernelIdeal.Whole.entry_input m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
